-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8x256x64x64 : Shape := ⟨5, ![8, 8, 256, 64, 64]⟩
abbrev S8x256x64x64 : Shape := ⟨4, ![8, 256, 64, 64]⟩
abbrev S_ : Shape := ⟨0, ![]⟩

class Facts : Prop where
  bcast_S_S8x8x256x64x64 : S_.BroadcastsInDim S8x8x256x64x64 (![] : Fin 0 → Fin S8x8x256x64x64.rank)
  reducesTo_S8x8x256x64x64_S_d0_1_2_3_4 : S8x8x256x64x64.ReducesTo [0, 1, 2, 3, 4] S_
  h_S_ : 0 < S_.numel
  bcast_S_S8x256x64x64 : S_.BroadcastsInDim S8x256x64x64 (![] : Fin 0 → Fin S8x256x64x64.rank)
  reducesTo_S8x256x64x64_S_d0_1_2_3 : S8x256x64x64.ReducesTo [0, 1, 2, 3] S_

variable [Facts]

def fn {F : FTy → Type} [FloatOps F] (main_arg0 : FVec F S8x8x256x64x64 .f32) (main_arg1 : FVec F S8x8x256x64x64 .f32) (main_arg2 : FVec F S8x256x64x64 .f32) : IVec S_ 1 :=
  let main_v0 : FVec F S8x8x256x64x64 .f32 := Host.absf main_arg0
  let main_cst : FVec F S_ .f32 := constant S_ .f32 0x7F800000#32
  let main_v1 : FVec F S8x8x256x64x64 .f32 := broadcastInDim S8x8x256x64x64 ![] bcast_S_S8x8x256x64x64 main_cst
  let main_v2 : IVec S8x8x256x64x64 1 := cmpf .olt main_v0 main_v1
  let main_c : IVec S_ 1 := constantI S_ 1 1#1
  let main_v3 : IVec S_ 1 := (fun x v => Host.reduce IntOp.andi x v reducesTo_S8x8x256x64x64_S_d0_1_2_3_4 h_S_) main_v2 main_c
  let main_v4 : FVec F S8x8x256x64x64 .f32 := Host.absf main_arg1
  let main_cst_0 : FVec F S_ .f32 := constant S_ .f32 0x7F800000#32
  let main_v5 : FVec F S8x8x256x64x64 .f32 := broadcastInDim S8x8x256x64x64 ![] bcast_S_S8x8x256x64x64 main_cst_0
  let main_v6 : IVec S8x8x256x64x64 1 := cmpf .olt main_v4 main_v5
  let main_c_1 : IVec S_ 1 := constantI S_ 1 1#1
  let main_v7 : IVec S_ 1 := (fun x v => Host.reduce IntOp.andi x v reducesTo_S8x8x256x64x64_S_d0_1_2_3_4 h_S_) main_v6 main_c_1
  let main_v8 : IVec S_ 1 := andi main_v3 main_v7
  let main_v9 : FVec F S8x256x64x64 .f32 := Host.absf main_arg2
  let main_cst_2 : FVec F S_ .f32 := constant S_ .f32 0x7F800000#32
  let main_v10 : FVec F S8x256x64x64 .f32 := broadcastInDim S8x256x64x64 ![] bcast_S_S8x256x64x64 main_cst_2
  let main_v11 : IVec S8x256x64x64 1 := cmpf .olt main_v9 main_v10
  let main_c_3 : IVec S_ 1 := constantI S_ 1 1#1
  let main_v12 : IVec S_ 1 := (fun x v => Host.reduce IntOp.andi x v reducesTo_S8x256x64x64_S_d0_1_2_3 h_S_) main_v11 main_c_3
  let main_v13 : IVec S_ 1 := andi main_v8 main_v12
  main_v13
-- ==== Kernel.lean ====
abbrev S8x8x256x64x64 : Shape := ⟨5, ![8, 8, 256, 64, 64]⟩
abbrev S8x256x64x64 : Shape := ⟨4, ![8, 256, 64, 64]⟩
abbrev S1x8x32x64x64 : Shape := ⟨5, ![1, 8, 32, 64, 64]⟩
abbrev S1x32x64x64 : Shape := ⟨4, ![1, 32, 64, 64]⟩
abbrev S8x32x64x64 : Shape := ⟨4, ![8, 32, 64, 64]⟩
abbrev S32x64x64 : Shape := ⟨3, ![32, 64, 64]⟩
abbrev S8x32x64 : Shape := ⟨3, ![8, 32, 64]⟩
abbrev S8x32x64x1 : Shape := ⟨4, ![8, 32, 64, 1]⟩
abbrev S8x32x1 : Shape := ⟨3, ![8, 32, 1]⟩
abbrev S8x32x1x1 : Shape := ⟨4, ![8, 32, 1, 1]⟩
abbrev S32x1x1 : Shape := ⟨3, ![32, 1, 1]⟩
abbrev S1x32x1x1 : Shape := ⟨4, ![1, 32, 1, 1]⟩

abbrev nBuf : Space → Nat
  | .hbm => 4
  | .vmem => 8
  | .smem => 0
  | _ => 0

abbrev bufTy : (tb : Table) → Fin (tcTables nBuf tb) → BufTy
  | .hbm, ⟨0, _⟩ => ⟨S8x8x256x64x64, .f32⟩
  | .hbm, ⟨1, _⟩ => ⟨S8x8x256x64x64, .f32⟩
  | .hbm, ⟨2, _⟩ => ⟨S8x256x64x64, .f32⟩
  | .hbm, ⟨3, _⟩ => ⟨S8x256x64x64, .f32⟩
  | .local _ .vmem, ⟨0, _⟩ => ⟨S1x8x32x64x64, .f32⟩
  | .local _ .vmem, ⟨1, _⟩ => ⟨S1x8x32x64x64, .f32⟩
  | .local _ .vmem, ⟨2, _⟩ => ⟨S1x8x32x64x64, .f32⟩
  | .local _ .vmem, ⟨3, _⟩ => ⟨S1x8x32x64x64, .f32⟩
  | .local _ .vmem, ⟨4, _⟩ => ⟨S1x32x64x64, .f32⟩
  | .local _ .vmem, ⟨5, _⟩ => ⟨S1x32x64x64, .f32⟩
  | .local _ .vmem, ⟨6, _⟩ => ⟨S1x32x64x64, .f32⟩
  | .local _ .vmem, ⟨7, _⟩ => ⟨S1x32x64x64, .f32⟩
  | _, _ => ⟨S8x8x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x32x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x32x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x8x32x64x64_S1x8x32x64x64_0_0_0_0_0 : ∀ a, (![0, 0, 0, 0, 0] : Fin 5 → Nat) a + S1x8x32x64x64.size a ≤ S1x8x32x64x64.size a
  h_S1x8x32x64x64 : 0 < S1x8x32x64x64.numel
  shapeCasts_S1x8x32x64x64_S8x32x64x64 : S1x8x32x64x64.ShapeCasts S8x32x64x64
  inb_S1x32x64x64_S1x32x64x64_0_0_0_0 : ∀ a, (![0, 0, 0, 0] : Fin 4 → Nat) a + S1x32x64x64.size a ≤ S1x32x64x64.size a
  h_S1x32x64x64 : 0 < S1x32x64x64.numel
  shapeCasts_S1x32x64x64_S32x64x64 : S1x32x64x64.ShapeCasts S32x64x64
  shapeCasts_S32x64x64_S1x32x64x64 : S32x64x64.ShapeCasts S1x32x64x64
  broadcasts_S1x32x64x64_S8x32x64x64 : S1x32x64x64.Broadcasts S8x32x64x64
  reduces_S8x32x64x64_S8x32x64 : S8x32x64x64.Reduces [3] S8x32x64
  shapeCasts_S8x32x64_S8x32x64x1 : S8x32x64.ShapeCasts S8x32x64x1
  reduces_S8x32x64x1_S8x32x1 : S8x32x64x1.Reduces [2] S8x32x1
  shapeCasts_S8x32x1_S8x32x1x1 : S8x32x1.ShapeCasts S8x32x1x1
  reduces_S8x32x1x1_S32x1x1 : S8x32x1x1.Reduces [0] S32x1x1
  shapeCasts_S32x1x1_S1x32x1x1 : S32x1x1.ShapeCasts S1x32x1x1
  broadcasts_S1x32x1x1_S8x32x1x1 : S1x32x1x1.Broadcasts S8x32x1x1
  broadcasts_S8x32x1x1_S8x32x64x64 : S8x32x1x1.Broadcasts S8x32x64x64
  reduces_S8x32x64x64_S32x64x64 : S8x32x64x64.Reduces [0] S32x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x32x64x64.size a ≤ S8x8x256x64x64.size a
  hwx0_0 : ∀ i : grid0.Coords, EltTy.bits .f32 = 32 ∨ (Rect.block (s := S8x8x256x64x64) S1x8x32x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x32x64x64.size a ≤ S8x8x256x64x64.size a
  hwx0_1 : ∀ i : grid0.Coords, EltTy.bits .f32 = 32 ∨ (Rect.block (s := S8x8x256x64x64) S1x8x32x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x64x64.size a ≤ S8x256x64x64.size a
  hwx0_2 : ∀ i : grid0.Coords, EltTy.bits .f32 = 32 ∨ (Rect.block (s := S8x256x64x64) S1x32x64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x64x64.size a ≤ S8x256x64x64.size a
  hwx0_3 : ∀ i : grid0.Coords, EltTy.bits .f32 = 32 ∨ (Rect.block (s := S8x256x64x64) S1x32x64x64.size (cc0_transform_3 i) (hinb0_3 i)).WholeWords (EltTy.packing .f32)

variable [Facts₀]

abbrev win0_0 : Pipeline.Window sig grid0 :=
  Pipeline.Window.ofSpec (Memref.whole main_arg0) S1x8x32x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x8x32x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x32x64x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x32x64x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x8x256x64x64 : Shape := ⟨5, ![8, 8, 256, 64, 64]⟩
abbrev S8x256x64x64 : Shape := ⟨4, ![8, 256, 64, 64]⟩
abbrev S8x1x256x64x64 : Shape := ⟨5, ![8, 1, 256, 64, 64]⟩
abbrev S_ : Shape := ⟨0, ![]⟩
abbrev S8x8x256 : Shape := ⟨3, ![8, 8, 256]⟩
abbrev S8x8x256x1x1 : Shape := ⟨5, ![8, 8, 256, 1, 1]⟩
abbrev S8x256x1x1 : Shape := ⟨4, ![8, 256, 1, 1]⟩
abbrev S8x1x256x1x1 : Shape := ⟨5, ![8, 1, 256, 1, 1]⟩

abbrev nBuf : Space → Nat
  | .hbm => 36
  | .vmem => 0
  | .smem => 0
  | _ => 0

abbrev bufTy : (tb : Table) → Fin (tcTables nBuf tb) → BufTy
  | .hbm, ⟨0, _⟩ => ⟨S8x8x256x64x64, .f32⟩
  | .hbm, ⟨1, _⟩ => ⟨S8x8x256x64x64, .f32⟩
  | .hbm, ⟨2, _⟩ => ⟨S8x256x64x64, .f32⟩
  | .hbm, ⟨3, _⟩ => ⟨S8x1x256x64x64, .f32⟩
  | .hbm, ⟨4, _⟩ => ⟨S8x8x256x64x64, .f32⟩
  | .hbm, ⟨5, _⟩ => ⟨S8x8x256x64x64, .f32⟩
  | .hbm, ⟨6, _⟩ => ⟨S_, .f32⟩
  | .hbm, ⟨7, _⟩ => ⟨S8x8x256, .f32⟩
  | .hbm, ⟨8, _⟩ => ⟨S8x8x256x1x1, .f32⟩
  | .hbm, ⟨9, _⟩ => ⟨S8x8x256x64x64, .f32⟩
  | .hbm, ⟨10, _⟩ => ⟨S_, .f32⟩
  | .hbm, ⟨11, _⟩ => ⟨S8x8x256, .f32⟩
  | .hbm, ⟨12, _⟩ => ⟨S8x8x256x1x1, .f32⟩
  | .hbm, ⟨13, _⟩ => ⟨S8x8x256x1x1, .f32⟩
  | .hbm, ⟨14, _⟩ => ⟨S8x8x256x1x1, .f32⟩
  | .hbm, ⟨15, _⟩ => ⟨S_, .f32⟩
  | .hbm, ⟨16, _⟩ => ⟨S8x8x256x1x1, .f32⟩
  | .hbm, ⟨17, _⟩ => ⟨S8x8x256x1x1, .f32⟩
  | .hbm, ⟨18, _⟩ => ⟨S_, .f32⟩
  | .hbm, ⟨19, _⟩ => ⟨S8x256x1x1, .f32⟩
  | .hbm, ⟨20, _⟩ => ⟨S_, .f32⟩
  | .hbm, ⟨21, _⟩ => ⟨S8x256x1x1, .f32⟩
  | .hbm, ⟨22, _⟩ => ⟨S8x256x1x1, .f32⟩
  | .hbm, ⟨23, _⟩ => ⟨S8x1x256x1x1, .f32⟩
  | .hbm, ⟨24, _⟩ => ⟨S8x8x256x1x1, .f32⟩
  | .hbm, ⟨25, _⟩ => ⟨S8x8x256x1x1, .f32⟩
  | .hbm, ⟨26, _⟩ => ⟨S8x8x256x1x1, .f32⟩
  | .hbm, ⟨27, _⟩ => ⟨S_, .f32⟩
  | .hbm, ⟨28, _⟩ => ⟨S8x256x1x1, .f32⟩
  | .hbm, ⟨29, _⟩ => ⟨S8x1x256x1x1, .f32⟩
  | .hbm, ⟨30, _⟩ => ⟨S8x8x256x1x1, .f32⟩
  | .hbm, ⟨31, _⟩ => ⟨S8x8x256x1x1, .f32⟩
  | .hbm, ⟨32, _⟩ => ⟨S8x8x256x64x64, .f32⟩
  | .hbm, ⟨33, _⟩ => ⟨S8x8x256x64x64, .f32⟩
  | .hbm, ⟨34, _⟩ => ⟨S_, .f32⟩
  | .hbm, ⟨35, _⟩ => ⟨S8x256x64x64, .f32⟩
  | _, _ => ⟨S8x8x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  bcast_S8x256x64x64_S8x1x256x64x64_0_2_3_4 : S8x256x64x64.BroadcastsInDim S8x1x256x64x64 (![0, 2, 3, 4] : Fin 4 → Fin S8x1x256x64x64.rank)
  bcast_S8x1x256x64x64_S8x8x256x64x64_0_1_2_3_4 : S8x1x256x64x64.BroadcastsInDim S8x8x256x64x64 (![0, 1, 2, 3, 4] : Fin 5 → Fin S8x8x256x64x64.rank)
  reducesTo_S8x8x256x64x64_S8x8x256_d3_4 : S8x8x256x64x64.ReducesTo [3, 4] S8x8x256
  h_S_ : 0 < S_.numel
  bcast_S8x8x256_S8x8x256x1x1_0_1_2 : S8x8x256.BroadcastsInDim S8x8x256x1x1 (![0, 1, 2] : Fin 3 → Fin S8x8x256x1x1.rank)
  bcast_S_S8x8x256x1x1 : S_.BroadcastsInDim S8x8x256x1x1 (![] : Fin 0 → Fin S8x8x256x1x1.rank)
  reducesTo_S8x8x256x1x1_S8x256x1x1_d1 : S8x8x256x1x1.ReducesTo [1] S8x256x1x1
  bcast_S_S8x256x1x1 : S_.BroadcastsInDim S8x256x1x1 (![] : Fin 0 → Fin S8x256x1x1.rank)
  bcast_S8x256x1x1_S8x1x256x1x1_0_2_3_4 : S8x256x1x1.BroadcastsInDim S8x1x256x1x1 (![0, 2, 3, 4] : Fin 4 → Fin S8x1x256x1x1.rank)
  bcast_S8x1x256x1x1_S8x8x256x1x1_0_1_2_3_4 : S8x1x256x1x1.BroadcastsInDim S8x8x256x1x1 (![0, 1, 2, 3, 4] : Fin 5 → Fin S8x8x256x1x1.rank)
  bcast_S8x8x256x1x1_S8x8x256x64x64_0_1_2_3_4 : S8x8x256x1x1.BroadcastsInDim S8x8x256x64x64 (![0, 1, 2, 3, 4] : Fin 5 → Fin S8x8x256x64x64.rank)
  reducesTo_S8x8x256x64x64_S8x256x64x64_d1 : S8x8x256x64x64.ReducesTo [1] S8x256x64x64

variable [Facts₀]

class Facts : Prop extends Facts₀ where

variable [Facts]
-- ==== Proof.Mixer.lean ====
/-
  The mathematics of the style mixer, with no program in sight.

  For one batch entry and one channel, a "slab" of the reference features is a family of K = 8 images
  `cr k` of 64 × 64 pixels, the target feature is one image `ct`, and the features to be mixed are K
  numbers `ir k` (one pixel of each of K images). The mixer scores each style `k` by twice the cosine-like
  ratio  ⟨ct, cr k⟩ / sqrt ⟨cr k, cr k⟩  (inner products over all 64 × 64 pixels), turns the K scores into
  softmax weights — subtract the largest score, exponentiate, divide by the sum of the exponentials — and
  returns the weighted sum  Σ_k ir k · weight k.

  Everything is read on the extended reals: sums are the exact sums, `Ideal.div`, `Ideal.sqrt`, `Ideal.exp`
  the exact functions with their conventions at zero and at the infinities. The two float literals that occur
  (2.0 and -∞) are kept as their binary words: both programs spell the same words, so they are never evaluated.
-/
import Idealize.ShloMosaic.PureOps.Ideal
import Idealize.ShloMosaic.Lib.ValueIdx

noncomputable section

namespace Cert.Mixer

open Idealize.ShloMosaic Idealize.ShloMosaic.ValueIdx

/-- The literal 2.0 the scores are scaled by, as its binary word. -/
abbrev two : EReal := Ideal.ofBits .f32 0x40000000#32
/-- The literal -∞ the running maximum starts from, as its binary word. -/
abbrev floor : EReal := Ideal.ofBits .f32 0xFF800000#32

section Slab

variable (cr : Fin 8 → Fin 64 → Fin 64 → EReal) (ct : Fin 64 → Fin 64 → EReal)

/-- ⟨ct, cr k⟩: the inner product of the target image with style image `k`, rows outside, columns inside. -/
def corr (k : Fin 8) : EReal := ∑ h : Fin 64, ∑ w : Fin 64, ct h w * cr k h w

/-- ⟨cr k, cr k⟩: the squared norm of style image `k`. -/
def energy (k : Fin 8) : EReal := ∑ h : Fin 64, ∑ w : Fin 64, cr k h w * cr k h w

/-- The score of style `k`: the inner product over the norm, doubled. -/
def score (k : Fin 8) : EReal := Ideal.div (corr cr ct k) (Ideal.sqrt (energy cr k)) * two

/-- The largest score (the maximum over the K styles, started from -∞). -/
def peak : EReal := (Finset.univ : Finset (Fin 8)).fold max floor (score cr ct)

/-- The exponential of a score's distance below the largest one. -/
def boost (k : Fin 8) : EReal := Ideal.exp (score cr ct k - peak cr ct)

/-- The softmax weight of style `k`. -/
def share (k : Fin 8) : EReal := Ideal.div (boost cr ct k) (∑ k' : Fin 8, boost cr ct k')

/-- The weighted sum of K numbers by the softmax weights. -/
def blend (ir : Fin 8 → EReal) : EReal := ∑ k : Fin 8, ir k * share cr ct k

end Slab

/-! ## The whole arrays -/

/-- The K style images of batch entry `b` and channel `c`. -/
abbrev styleSlab (CR : (⟨5, ![8, 8, 256, 64, 64]⟩ : Shape).Idx → EReal) (b : Fin 8) (c : Fin 256) :
    Fin 8 → Fin 64 → Fin 64 → EReal := fun k h w => CR (ix5 b k c h w)

/-- The target image of batch entry `b` and channel `c`. -/
abbrev targetSlab (CT : (⟨4, ![8, 256, 64, 64]⟩ : Shape).Idx → EReal) (b : Fin 8) (c : Fin 256) :
    Fin 64 → Fin 64 → EReal := fun h w => CT (ix4 b c h w)

/-- The K values to be mixed at pixel (h, w) of batch entry `b` and channel `c`. -/
abbrev pixelStack (IR : (⟨5, ![8, 8, 256, 64, 64]⟩ : Shape).Idx → EReal) (b : Fin 8) (c : Fin 256) (h w : Fin 64) :
    Fin 8 → EReal := fun k => IR (ix5 b k c h w)

/-- THE RESULT ARRAY: at (b, c, h, w) the softmax-weighted sum over the K styles of `IR` at that pixel, the
    weights computed from the whole 64 × 64 images of `CR` and `CT` at (b, c). -/
def mixed (IR CR : (⟨5, ![8, 8, 256, 64, 64]⟩ : Shape).Idx → EReal) (CT : (⟨4, ![8, 256, 64, 64]⟩ : Shape).Idx → EReal) :
    (⟨4, ![8, 256, 64, 64]⟩ : Shape).Idx → EReal :=
  fun i => blend (styleSlab CR (i 0) (i 1)) (targetSlab CT (i 0) (i 1)) (pixelStack IR (i 0) (i 1) (i 2) (i 3))

theorem mixed_apply (IR CR : (⟨5, ![8, 8, 256, 64, 64]⟩ : Shape).Idx → EReal) (CT : (⟨4, ![8, 256, 64, 64]⟩ : Shape).Idx → EReal)
    (b : Fin 8) (c : Fin 256) (h w : Fin 64) :
    mixed IR CR CT (ix4 b c h w) = blend (styleSlab CR b c) (targetSlab CT b c) (pixelStack IR b c h w) := rfl

end Cert.Mixer

end
-- ==== Proof.KernelBody.lean ====
/-
  What one grid point of the kernel computes, read index by index.

  At a grid point the body holds three blocks: `P0` and `P2`, the [1, 8, 32, 64, 64] blocks of the features to be
  mixed and of the style features (K = 8 styles, 32 channels, 64 × 64 pixels), and `P1`, the [1, 32, 64, 64] block of
  the target feature. It drops the leading unit axes, broadcasts the target over the styles, and for every style
  and channel sums two products over the pixels — first along a row (the last axis), then over the rows, keeping
  unit axes — which are the inner product and the squared norm of the mixer. The doubled quotient is the score; the
  maximum and the sum over the style axis are broadcast back over it; and the last reduction over the style axis is the
  weighted sum. So at channel `c` and pixel (r, w) of the block the body leaves the mixer's `blend` of the slabs
  of the three blocks at `c`.
-/
import proofs.«150728_j87497073754187_1_alg».proof.Proof.Gen.KernelIdeal.Value
import proofs.«150728_j87497073754187_1_alg».proof.Proof.Mixer
import Idealize.ShloMosaic.PureOps.Ideal.Laws
import Idealize.ShloMosaic.Lib.Pipeline.Value
import Idealize.ShloMosaic.Lib.ValueIdx

noncomputable section

namespace Cert.KernelIdeal.Body

open Cert.KernelIdeal Cert.KernelIdeal.Gen Cert.Mixer
open Idealize.ShloMosaic Idealize.ShloMosaic.ValueIdx

/-! ## The layout steps, at explicit coordinates -/

section Layout

variable {α : Type}

/-- Dropping the leading unit axis of a [1, 8, 32, 64, 64] block. -/
theorem dropLead5 (v : S1x8x32x64x64.Idx → α) (h : S1x8x32x64x64.ShapeCasts S8x32x64x64) (k : Fin 8) (c : Fin 32) (r w : Fin 64) :
    shapeCast S8x32x64x64 v h (ix4 k c r w) = v (ix5 0 k c r w) :=
  shapeCast_apply v h (ix4 k c r w) (ix5 0 k c r w) (by
    rw [Shape.rowMajor_val_five, Shape.rowMajor_val_four]
    show ((((0 : Nat) * 8 + k.val) * 32 + c.val) * 64 + r.val) * 64 + w.val = ((k.val * 32 + c.val) * 64 + r.val) * 64 + w.val
    omega)

/-- A [1, 32, 64, 64] block broadcast over the 8 styles. -/
theorem overStyles (v : S1x32x64x64.Idx → α) (h : S1x32x64x64.Broadcasts S8x32x64x64) (k : Fin 8) (c : Fin 32) (r w : Fin 64) :
    broadcastTo S8x32x64x64 v h (ix4 k c r w) = v (ix4 0 c r w) :=
  broadcastTo_apply v h (ix4 k c r w) (ix4 0 c r w) (fun a => match a with
    | ⟨0, _⟩ => by show (0 : Nat) = if (1 : Nat) = 1 then 0 else k.val; rw [if_pos rfl]
    | ⟨1, _⟩ => by show c.val = if (32 : Nat) = 1 then 0 else c.val; rw [if_neg (by decide)]
    | ⟨2, _⟩ => by show r.val = if (64 : Nat) = 1 then 0 else r.val; rw [if_neg (by decide)]
    | ⟨3, _⟩ => by show w.val = if (64 : Nat) = 1 then 0 else w.val; rw [if_neg (by decide)])

/-- A row sum kept as a unit last axis. -/
theorem keepLast (v : S8x32x64.Idx → α) (h : S8x32x64.ShapeCasts S8x32x64x1) (k : Fin 8) (c : Fin 32) (r : Fin 64) :
    shapeCast S8x32x64x1 v h (ix4 k c r 0) = v (ix3 k c r) :=
  shapeCast_apply v h (ix4 k c r 0) (ix3 k c r) (by
    rw [Shape.rowMajor_val_three, Shape.rowMajor_val_four]
    show (k.val * 32 + c.val) * 64 + r.val = ((k.val * 32 + c.val) * 64 + r.val) * 1 + 0
    omega)

/-- A pixel sum kept as two unit axes. -/
theorem keepBoth (v : S8x32x1.Idx → α) (h : S8x32x1.ShapeCasts S8x32x1x1) (k : Fin 8) (c : Fin 32) :
    shapeCast S8x32x1x1 v h (ix4 k c 0 0) = v (ix3 k c 0) :=
  shapeCast_apply v h (ix4 k c 0 0) (ix3 k c 0) (by
    rw [Shape.rowMajor_val_three, Shape.rowMajor_val_four]
    show (k.val * 32 + c.val) * 1 + 0 = ((k.val * 32 + c.val) * 1 + 0) * 1 + 0
    omega)

/-- A reduction over the styles given back its unit leading axis. -/
theorem addLead (v : S32x1x1.Idx → α) (h : S32x1x1.ShapeCasts S1x32x1x1) (c : Fin 32) :
    shapeCast S1x32x1x1 v h (ix4 0 c 0 0) = v (ix3 c 0 0) :=
  shapeCast_apply v h (ix4 0 c 0 0) (ix3 c 0 0) (by
    rw [Shape.rowMajor_val_three, Shape.rowMajor_val_four]
    show (c.val * 1 + 0) * 1 + 0 = (((0 : Nat) * 32 + c.val) * 1 + 0) * 1 + 0
    omega)

/-- ... and broadcast back over the styles. -/
theorem backOverStyles (v : S1x32x1x1.Idx → α) (h : S1x32x1x1.Broadcasts S8x32x1x1) (k : Fin 8) (c : Fin 32) :
    broadcastTo S8x32x1x1 v h (ix4 k c 0 0) = v (ix4 0 c 0 0) :=
  broadcastTo_apply v h (ix4 k c 0 0) (ix4 0 c 0 0) (fun a => match a with
    | ⟨0, _⟩ => by show (0 : Nat) = if (1 : Nat) = 1 then 0 else k.val; rw [if_pos rfl]
    | ⟨1, _⟩ => by show c.val = if (32 : Nat) = 1 then 0 else c.val; rw [if_neg (by decide)]
    | ⟨2, _⟩ => by show (0 : Nat) = if (1 : Nat) = 1 then 0 else 0; rw [if_pos rfl]
    | ⟨3, _⟩ => by show (0 : Nat) = if (1 : Nat) = 1 then 0 else 0; rw [if_pos rfl])

/-- One number per style and channel broadcast over the pixels. -/
theorem overPixels (v : S8x32x1x1.Idx → α) (h : S8x32x1x1.Broadcasts S8x32x64x64) (k : Fin 8) (c : Fin 32) (r w : Fin 64) :
    broadcastTo S8x32x64x64 v h (ix4 k c r w) = v (ix4 k c 0 0) :=
  broadcastTo_apply v h (ix4 k c r w) (ix4 k c 0 0) (fun a => match a with
    | ⟨0, _⟩ => by show k.val = if (8 : Nat) = 1 then 0 else k.val; rw [if_neg (by decide)]
    | ⟨1, _⟩ => by show c.val = if (32 : Nat) = 1 then 0 else c.val; rw [if_neg (by decide)]
    | ⟨2, _⟩ => by show (0 : Nat) = if (1 : Nat) = 1 then 0 else r.val; rw [if_pos rfl]
    | ⟨3, _⟩ => by show (0 : Nat) = if (1 : Nat) = 1 then 0 else w.val; rw [if_pos rfl])

/-- The entries a reduction along a row adds into (k, c, r) are the (k, c, r, w). -/
theorem liftLast (h : S8x32x64x64.Reduces [3] S8x32x64) (k : Fin 8) (c : Fin 32) (r w : Fin 64) :
    h.lift (ix3 k c r) w = ix4 k c r w :=
  funext fun a => Fin.ext (by match a with | ⟨0, _⟩ => rfl | ⟨1, _⟩ => rfl | ⟨2, _⟩ => rfl | ⟨3, _⟩ => rfl)

/-- The entries a reduction over the rows adds into (k, c, 0) are the (k, c, r, 0). -/
theorem liftRows (h : S8x32x64x1.Reduces [2] S8x32x1) (k : Fin 8) (c : Fin 32) (r : Fin 64) :
    h.lift (ix3 k c 0) r = ix4 k c r 0 :=
  funext fun a => Fin.ext (by match a with | ⟨0, _⟩ => rfl | ⟨1, _⟩ => rfl | ⟨2, _⟩ => rfl | ⟨3, _⟩ => rfl)

/-- The entries a reduction over the styles combines into (c, 0, 0) are the (k, c, 0, 0). -/
theorem liftStyles1 (h : S8x32x1x1.Reduces [0] S32x1x1) (k : Fin 8) (c : Fin 32) :
    h.lift (ix3 c 0 0) k = ix4 k c 0 0 :=
  funext fun a => Fin.ext (by match a with | ⟨0, _⟩ => rfl | ⟨1, _⟩ => rfl | ⟨2, _⟩ => rfl | ⟨3, _⟩ => rfl)

/-- The entries the last reduction over the styles adds into (c, r, w) are the (k, c, r, w). -/
theorem liftStyles (h : S8x32x64x64.Reduces [0] S32x64x64) (k : Fin 8) (c : Fin 32) (r w : Fin 64) :
    h.lift (ix3 c r w) k = ix4 k c r w :=
  funext fun a => Fin.ext (by match a with | ⟨0, _⟩ => rfl | ⟨1, _⟩ => rfl | ⟨2, _⟩ => rfl | ⟨3, _⟩ => rfl)

end Layout

/-! ## The body's stages as functions of the three blocks -/

section Blocks

variable (P0 : Vec Ideal S1x8x32x64x64 .f32) (P1 : Vec Ideal S1x32x64x64 .f32) (P2 : Vec Ideal S1x8x32x64x64 .f32)

/-- The style block without its unit axis. -/
def styleBlk : FVec Ideal S8x32x64x64 .f32 :=
  shapeCast S8x32x64x64 P2 shapeCasts_S1x8x32x64x64_S8x32x64x64

/-- The target block broadcast over the styles. -/
def targetBlk : FVec Ideal S8x32x64x64 .f32 :=
  broadcastTo S8x32x64x64 (shapeCast S1x32x64x64 (shapeCast S32x64x64 P1 shapeCasts_S1x32x64x64_S32x64x64) shapeCasts_S32x64x64_S1x32x64x64) broadcasts_S1x32x64x64_S8x32x64x64

/-- The sum over the pixels, a row at a time and then over the rows, with both unit axes kept. -/
def pixelSum (X : FVec Ideal S8x32x64x64 .f32) : FVec Ideal S8x32x1x1 .f32 :=
  shapeCast S8x32x1x1 (multiReduction (F := Ideal) .add [2] S8x32x1 (shapeCast S8x32x64x1 (multiReduction (F := Ideal) .add [3] S8x32x64 X 0x00000000#32 reduces_S8x32x64x64_S8x32x64 (.inl rfl) rfl) shapeCasts_S8x32x64_S8x32x64x1) 0x00000000#32 reduces_S8x32x64x1_S8x32x1 (.inl rfl) rfl) shapeCasts_S8x32x1_S8x32x1x1

/-- The doubled quotient of the inner product by the norm. -/
def scoreBlk : FVec Ideal S8x32x1x1 .f32 :=
  mulf (F := Ideal) (divf (F := Ideal) (pixelSum (mulf (F := Ideal) (targetBlk P1) (styleBlk P2))) (sqrt (F := Ideal) (pixelSum (mulf (F := Ideal) (styleBlk P2) (styleBlk P2))))) (broadcast S8x32x1x1 (Scalar.ofBits (F := Ideal) .f32 0x40000000#32))

/-- The largest score over the styles, broadcast back over them. -/
def peakBlk : FVec Ideal S8x32x1x1 .f32 :=
  broadcastTo S8x32x1x1 (shapeCast S1x32x1x1 (multiReduction (F := Ideal) .maximumf [0] S32x1x1 (scoreBlk P1 P2) 0xFF800000#32 reduces_S8x32x1x1_S32x1x1 (.inl rfl) rfl) shapeCasts_S32x1x1_S1x32x1x1) broadcasts_S1x32x1x1_S8x32x1x1

/-- The exponentials of the scores' distances below the largest. -/
def boostBlk : FVec Ideal S8x32x1x1 .f32 :=
  exp (F := Ideal) (subf (F := Ideal) (scoreBlk P1 P2) (peakBlk P1 P2))

/-- Their sum over the styles, broadcast back over them. -/
def totalBlk : FVec Ideal S8x32x1x1 .f32 :=
  broadcastTo S8x32x1x1 (shapeCast S1x32x1x1 (multiReduction (F := Ideal) .add [0] S32x1x1 (boostBlk P1 P2) 0x00000000#32 reduces_S8x32x1x1_S32x1x1 (.inl rfl) rfl) shapeCasts_S32x1x1_S1x32x1x1) broadcasts_S1x32x1x1_S8x32x1x1

/-- The softmax weights. -/
def shareBlk : FVec Ideal S8x32x1x1 .f32 :=
  divf (F := Ideal) (boostBlk P1 P2) (totalBlk P1 P2)

/-- The weighted sum over the styles. -/
def outBlk : FVec Ideal S32x64x64 .f32 :=
  multiReduction (F := Ideal) .add [0] S32x64x64 (mulf (F := Ideal) (shapeCast S8x32x64x64 P0 shapeCasts_S1x8x32x64x64_S8x32x64x64) (broadcastTo S8x32x64x64 (shareBlk P1 P2) broadcasts_S8x32x1x1_S8x32x64x64)) 0x00000000#32 reduces_S8x32x64x64_S32x64x64 (.inl rfl) rfl

/-- The block the body's one store leaves is that weighted sum, read past the store's unit leading axis. -/
theorem stored_eq (y : S1x32x64x64.Idx) :
    Cert.KernelIdeal.Value.E3 (F := Ideal) P0 P1 P2 y = outBlk P0 P1 P2 (Cert.KernelIdeal.Value.ix3_0 y) := rfl

/-! ## Each stage at an index -/

theorem styleBlk_apply (k : Fin 8) (c : Fin 32) (r w : Fin 64) : styleBlk P2 (ix4 k c r w) = P2 (ix5 0 k c r w) :=
  dropLead5 P2 _ k c r w

theorem targetBlk_apply (k : Fin 8) (c : Fin 32) (r w : Fin 64) : targetBlk P1 (ix4 k c r w) = P1 (ix4 0 c r w) := by
  unfold targetBlk
  rw [shapeCast_shapeCast]
  exact overStyles P1 _ k c r w

theorem pixelSum_apply (X : FVec Ideal S8x32x64x64 .f32) (k : Fin 8) (c : Fin 32) :
    pixelSum X (ix4 k c 0 0) = ∑ r : Fin 64, ∑ w : Fin 64, X (ix4 k c r w) := by
  unfold pixelSum
  refine (keepBoth _ _ k c).trans ?_
  refine (Ideal.multiReduction_add_single _ _ reduces_S8x32x64x1_S8x32x1 _ _ (ix3 k c 0)).trans ?_
  refine Finset.sum_congr rfl fun (r : Fin 64) _ => ?_
  rw [liftRows]
  refine (keepLast _ _ k c r).trans ?_
  refine (Ideal.multiReduction_add_single _ _ reduces_S8x32x64x64_S8x32x64 _ _ (ix3 k c r)).trans ?_
  exact Finset.sum_congr rfl fun (w : Fin 64) _ => by rw [liftLast]

theorem scoreBlk_apply (k : Fin 8) (c : Fin 32) :
    scoreBlk P1 P2 (ix4 k c 0 0) = score (fun k h w => P2 (ix5 0 k c h w)) (fun h w => P1 (ix4 0 c h w)) k := by
  show Ideal.div (pixelSum (mulf (F := Ideal) (targetBlk P1) (styleBlk P2)) (ix4 k c 0 0))
      (Ideal.sqrt (pixelSum (mulf (F := Ideal) (styleBlk P2) (styleBlk P2)) (ix4 k c 0 0))) * Ideal.ofBits .f32 0x40000000#32 = _
  rw [pixelSum_apply, pixelSum_apply]
  have e1 : ∀ r w : Fin 64, mulf (F := Ideal) (targetBlk P1) (styleBlk P2) (ix4 k c r w) = P1 (ix4 0 c r w) * P2 (ix5 0 k c r w) := fun r w => by
    show targetBlk P1 (ix4 k c r w) * styleBlk P2 (ix4 k c r w) = _
    rw [targetBlk_apply, styleBlk_apply]
  have e2 : ∀ r w : Fin 64, mulf (F := Ideal) (styleBlk P2) (styleBlk P2) (ix4 k c r w) = P2 (ix5 0 k c r w) * P2 (ix5 0 k c r w) := fun r w => by
    show styleBlk P2 (ix4 k c r w) * styleBlk P2 (ix4 k c r w) = _
    rw [styleBlk_apply]
  simp only [e1, e2]
  rfl

theorem peakBlk_apply (k : Fin 8) (c : Fin 32) :
    peakBlk P1 P2 (ix4 k c 0 0) = peak (fun k h w => P2 (ix5 0 k c h w)) (fun h w => P1 (ix4 0 c h w)) := by
  unfold peakBlk
  refine (backOverStyles _ _ k c).trans ?_
  refine (addLead _ _ c).trans ?_
  refine (Ideal.multiReduction_maximumf_single _ _ reduces_S8x32x1x1_S32x1x1 _ _ (ix3 c 0 0)).trans ?_
  unfold peak
  refine Finset.fold_congr fun (k' : Fin 8) _ => ?_
  show scoreBlk P1 P2 (reduces_S8x32x1x1_S32x1x1.lift (ix3 c 0 0) k') = _
  rw [liftStyles1, scoreBlk_apply]

theorem boostBlk_apply (k : Fin 8) (c : Fin 32) :
    boostBlk P1 P2 (ix4 k c 0 0) = boost (fun k h w => P2 (ix5 0 k c h w)) (fun h w => P1 (ix4 0 c h w)) k := by
  show Ideal.exp (scoreBlk P1 P2 (ix4 k c 0 0) - peakBlk P1 P2 (ix4 k c 0 0)) = _
  rw [scoreBlk_apply, peakBlk_apply]
  rfl

theorem totalBlk_apply (k : Fin 8) (c : Fin 32) :
    totalBlk P1 P2 (ix4 k c 0 0) = ∑ k' : Fin 8, boost (fun k h w => P2 (ix5 0 k c h w)) (fun h w => P1 (ix4 0 c h w)) k' := by
  unfold totalBlk
  refine (backOverStyles _ _ k c).trans ?_
  refine (addLead _ _ c).trans ?_
  refine (Ideal.multiReduction_add_single _ _ reduces_S8x32x1x1_S32x1x1 _ _ (ix3 c 0 0)).trans ?_
  refine Finset.sum_congr rfl fun (k' : Fin 8) _ => ?_
  rw [liftStyles1]
  exact boostBlk_apply P1 P2 k' c

theorem shareBlk_apply (k : Fin 8) (c : Fin 32) :
    shareBlk P1 P2 (ix4 k c 0 0) = share (fun k h w => P2 (ix5 0 k c h w)) (fun h w => P1 (ix4 0 c h w)) k := by
  show Ideal.div (boostBlk P1 P2 (ix4 k c 0 0)) (totalBlk P1 P2 (ix4 k c 0 0)) = _
  rw [boostBlk_apply, totalBlk_apply]
  rfl

theorem outBlk_apply (c : Fin 32) (r w : Fin 64) :
    outBlk P0 P1 P2 (ix3 c r w)
      = blend (fun k h w => P2 (ix5 0 k c h w)) (fun h w => P1 (ix4 0 c h w)) (fun k => P0 (ix5 0 k c r w)) := by
  unfold outBlk
  refine (Ideal.multiReduction_add_single _ _ reduces_S8x32x64x64_S32x64x64 _ _ (ix3 c r w)).trans ?_
  unfold blend
  refine Finset.sum_congr rfl fun (k : Fin 8) _ => ?_
  rw [liftStyles]
  show shapeCast S8x32x64x64 P0 shapeCasts_S1x8x32x64x64_S8x32x64x64 (ix4 k c r w)
      * broadcastTo S8x32x64x64 (shareBlk P1 P2) broadcasts_S8x32x1x1_S8x32x64x64 (ix4 k c r w) = _
  rw [dropLead5, overPixels, shareBlk_apply]

/-- WHAT THE BODY STORES at channel `c` and pixel (r, w) of its block: the mixer's weighted sum of the slabs of the
    three blocks at channel `c`. -/
theorem stored_apply (c : Fin 32) (r w : Fin 64) :
    Cert.KernelIdeal.Value.E3 (F := Ideal) P0 P1 P2 (ix4 0 c r w)
      = blend (fun k h w => P2 (ix5 0 k c h w)) (fun h w => P1 (ix4 0 c h w)) (fun k => P0 (ix5 0 k c r w)) := by
  rw [stored_eq]
  have e : Cert.KernelIdeal.Value.ix3_0 (ix4 (0 : Fin 1) c r w) = ix3 c r w :=
    funext fun a => Fin.ext (by match a with | ⟨0, _⟩ => rfl | ⟨1, _⟩ => rfl | ⟨2, _⟩ => rfl)
  rw [e]
  exact outBlk_apply P0 P1 P2 c r w

end Blocks

end Cert.KernelIdeal.Body

end
-- ==== Proof.KernelArray.lean ====
/-
  From the grid points' blocks to the whole result array.

  The grid has 8 × 8 points (batch entry, channel tile). At point (b, q) the two [8, 8, 256, 64, 64] arguments are
  staged as their blocks at batch `b` and channels 32 q … 32 q + 31 (all 8 styles, all 64 × 64 pixels), the target
  as its block at the same batch and channels, and the result's block at the same batch and channels is written
  back. A block's entry (0, k, c, r, w) is therefore the array's entry (b, k, 32 q + c, r, w); the slabs the body's
  weighted sum is computed from are the array's slabs at (b, 32 q + c); and what the point writes back is the
  block of the mixer's result array. The 64 blocks tile the result array, so after the run it holds the mixer's
  function of the three arguments.
-/
import proofs.«150728_j87497073754187_1_alg».proof.Proof.KernelBody
import Idealize.ShloMosaic.Lib.Pipeline.Value
import Idealize.ShloMosaic.Lib.Tactic

noncomputable section

namespace Cert.KernelIdeal.Whole

open Cert.KernelIdeal Cert.KernelIdeal.Gen Cert.KernelIdeal.Value Cert.KernelIdeal.Body Cert.Mixer
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zeros5 : (![0, 0, 0, 0, 0] : Fin 5 → Nat) = fun _ => 0 := funext fun a => by fin_cases a <;> rfl
theorem zeros4 : (![0, 0, 0, 0] : Fin 4 → Nat) = fun _ => 0 := funext fun a => by fin_cases a <;> rfl

/-! ## One point, over blocks as variables -/

/-- What the body leaves in the result's staging buffer, from the three input blocks, at channel `cc` and pixel
    (r, w): the body loads and stores whole buffers, so this is the stored value read off the blocks themselves. -/
theorem out_apply (x0 x1 : Vec Ideal S1x8x32x64x64 .f32) (x2 : Vec Ideal S1x32x64x64 .f32) (cc : Fin 32) (r w : Fin 64) :
    out0_3 x0 x1 x2 (ix4 0 cc r w)
      = blend (fun k h w => x1 (ix5 0 k cc h w)) (fun h w => x2 (ix4 0 cc h w)) (fun k => x0 (ix5 0 k cc r w)) := by
  unfold out0_3
  simp only [View.ld_unit_zero (S := S1x8x32x64x64) zeros5, View.ld_unit_zero (S := S1x32x64x64) zeros4]
  exact (canon3_eq x0 x2 x1 (ix4 0 cc r w)).trans (stored_apply x0 x2 x1 cc r w)

/-- If the three blocks are the arrays' blocks at batch `b` and channel tile `q`, then what the body leaves at a
    block index is the mixer's result at the array index that block index sits at. -/
theorem point_eq (x0 x1 : Vec Ideal S1x8x32x64x64 .f32) (x2 : Vec Ideal S1x32x64x64 .f32)
    (IR CR : S8x8x256x64x64.Idx → EReal) (CT : S8x256x64x64.Idx → EReal) (b : Fin 8) (q : Nat)
    (h0 : ∀ (k : Fin 8) (cc : Fin 32) (r w : Fin 64) (ch : Fin 256), ch.val = q * 32 + cc.val → x0 (ix5 0 k cc r w) = IR (ix5 b k ch r w))
    (h1 : ∀ (k : Fin 8) (cc : Fin 32) (r w : Fin 64) (ch : Fin 256), ch.val = q * 32 + cc.val → x1 (ix5 0 k cc r w) = CR (ix5 b k ch r w))
    (h2 : ∀ (cc : Fin 32) (r w : Fin 64) (ch : Fin 256), ch.val = q * 32 + cc.val → x2 (ix4 0 cc r w) = CT (ix4 b ch r w))
    (y : S1x32x64x64.Idx) (i : S8x256x64x64.Idx)
    (hi0 : (i 0).val = b.val) (hi1 : (i 1).val = q * 32 + (y 1).val) (hi2 : (i 2).val = (y 2).val) (hi3 : (i 3).val = (y 3).val) :
    out0_3 x0 x1 x2 y = mixed IR CR CT i := by
  obtain ⟨u, cc, r, w, rfl⟩ : ∃ (u : Fin 1) (cc : Fin 32) (r w : Fin 64), y = ix4 u cc r w := ⟨y 0, y 1, y 2, y 3, eq_ix4 y⟩
  obtain rfl : u = 0 := Subsingleton.elim _ _
  obtain ⟨b', ch, r', w', rfl⟩ : ∃ (b' : Fin 8) (ch : Fin 256) (r' w' : Fin 64), i = ix4 b' ch r' w' := ⟨i 0, i 1, i 2, i 3, eq_ix4 i⟩
  obtain rfl : b' = b := Fin.ext hi0
  obtain rfl : r' = r := Fin.ext hi2
  obtain rfl : w' = w := Fin.ext hi3
  have hc : ch.val = q * 32 + cc.val := hi1
  rw [out_apply, mixed_apply]
  have e0 : (fun k => x0 (ix5 0 k cc r' w')) = pixelStack IR b' ch r' w' := funext fun k => h0 k cc r' w' ch hc
  have e1 : (fun k h w => x1 (ix5 0 k cc h w)) = styleSlab CR b' ch := funext fun k => funext fun h => funext fun w => h1 k cc h w ch hc
  have e2 : (fun h w => x2 (ix4 0 cc h w)) = targetSlab CT b' ch := funext fun h => funext fun w => h2 cc h w ch hc
  rw [e0, e1, e2]

/-! ## The index maps, decided over the 64 grid points -/

/-- Each input window moves with the result's window: same batch entry, same channel tile, everything else whole. -/
theorem idx_facts : ∀ t : Fin cfg0.N,
    win0_0.index t (0 : Fin 5) = win0_3.index t (0 : Fin 4) ∧ win0_0.index t (1 : Fin 5) = 0
    ∧ win0_0.index t (2 : Fin 5) = win0_3.index t (1 : Fin 4) ∧ win0_0.index t (3 : Fin 5) = 0 ∧ win0_0.index t (4 : Fin 5) = 0
    ∧ win0_1.index t (0 : Fin 5) = win0_3.index t (0 : Fin 4) ∧ win0_1.index t (1 : Fin 5) = 0
    ∧ win0_1.index t (2 : Fin 5) = win0_3.index t (1 : Fin 4) ∧ win0_1.index t (3 : Fin 5) = 0 ∧ win0_1.index t (4 : Fin 5) = 0
    ∧ win0_2.index t (0 : Fin 4) = win0_3.index t (0 : Fin 4) ∧ win0_2.index t (1 : Fin 4) = win0_3.index t (1 : Fin 4)
    ∧ win0_2.index t (2 : Fin 4) = 0 ∧ win0_2.index t (3 : Fin 4) = 0
    ∧ win0_3.index t (0 : Fin 4) < 8 ∧ win0_3.index t (1 : Fin 4) < 8
    ∧ win0_3.index t (2 : Fin 4) = 0 ∧ win0_3.index t (3 : Fin 4) = 0 :=
  (by decide +kernel : ∀ t : Fin grid0.N, _)

/-- Every (batch entry, channel tile) is some point's. -/
theorem idx_onto : ∀ (q0 : Fin 8) (q1 : Fin 8), ∃ t : Fin cfg0.N, win0_3.index t = ![q0.val, q1.val, 0, 0] :=
  (by decide +kernel : ∀ (q0 : Fin 8) (q1 : Fin 8), ∃ t : Fin grid0.N, win0_3.index t = ![q0.val, q1.val, 0, 0])

/-! ## The input blocks as entries of the arrays -/

theorem mixBlock_read (c : Dev nD) (t : Fin cfg0.N) (k : Fin 8) (cc : Fin 32) (r w : Fin 64) (b : Fin 8) (ch : Fin 256)
    (hb : b.val = win0_3.index t (0 : Fin 4)) (hch : ch.val = win0_3.index t (1 : Fin 4) * 32 + cc.val) :
    (iblk m c 0 t : Vec Ideal S1x8x32x64x64 .f32) (ix5 0 k cc r w) = (V m c main_arg0 : S8x8x256x64x64.Idx → EReal) (ix5 b k ch r w) := by
  obtain ⟨e0, e1, e2, e3, e4, -⟩ := idx_facts t
  unfold iblk
  rw [View.read_apply]
  show V m c main_arg0 (((cfg0.win 0).blk t).view.emb (ix5 0 k cc r w)) = V m c main_arg0 (ix5 b k ch r w)
  refine congrArg (V m c main_arg0) ?_
  funext a; apply Fin.ext
  match a with
  | ⟨0, _⟩ => show win0_0.index t (0 : Fin 5) * 1 + 1 * 0 = b.val; omega
  | ⟨1, _⟩ => show win0_0.index t (1 : Fin 5) * 8 + 1 * k.val = k.val; omega
  | ⟨2, _⟩ => show win0_0.index t (2 : Fin 5) * 32 + 1 * cc.val = ch.val; omega
  | ⟨3, _⟩ => show win0_0.index t (3 : Fin 5) * 64 + 1 * r.val = r.val; omega
  | ⟨4, _⟩ => show win0_0.index t (4 : Fin 5) * 64 + 1 * w.val = w.val; omega

theorem styleBlock_read (c : Dev nD) (t : Fin cfg0.N) (k : Fin 8) (cc : Fin 32) (r w : Fin 64) (b : Fin 8) (ch : Fin 256)
    (hb : b.val = win0_3.index t (0 : Fin 4)) (hch : ch.val = win0_3.index t (1 : Fin 4) * 32 + cc.val) :
    (iblk m c 1 t : Vec Ideal S1x8x32x64x64 .f32) (ix5 0 k cc r w) = (V m c main_arg1 : S8x8x256x64x64.Idx → EReal) (ix5 b k ch r w) := by
  obtain ⟨-, -, -, -, -, e0, e1, e2, e3, e4, -⟩ := idx_facts t
  unfold iblk
  rw [View.read_apply]
  show V m c main_arg1 (((cfg0.win 1).blk t).view.emb (ix5 0 k cc r w)) = V m c main_arg1 (ix5 b k ch r w)
  refine congrArg (V m c main_arg1) ?_
  funext a; apply Fin.ext
  match a with
  | ⟨0, _⟩ => show win0_1.index t (0 : Fin 5) * 1 + 1 * 0 = b.val; omega
  | ⟨1, _⟩ => show win0_1.index t (1 : Fin 5) * 8 + 1 * k.val = k.val; omega
  | ⟨2, _⟩ => show win0_1.index t (2 : Fin 5) * 32 + 1 * cc.val = ch.val; omega
  | ⟨3, _⟩ => show win0_1.index t (3 : Fin 5) * 64 + 1 * r.val = r.val; omega
  | ⟨4, _⟩ => show win0_1.index t (4 : Fin 5) * 64 + 1 * w.val = w.val; omega

theorem targetBlock_read (c : Dev nD) (t : Fin cfg0.N) (cc : Fin 32) (r w : Fin 64) (b : Fin 8) (ch : Fin 256)
    (hb : b.val = win0_3.index t (0 : Fin 4)) (hch : ch.val = win0_3.index t (1 : Fin 4) * 32 + cc.val) :
    (iblk m c 2 t : Vec Ideal S1x32x64x64 .f32) (ix4 0 cc r w) = (V m c main_arg2 : S8x256x64x64.Idx → EReal) (ix4 b ch r w) := by
  obtain ⟨-, -, -, -, -, -, -, -, -, -, e0, e1, e2, e3, -⟩ := idx_facts t
  unfold iblk
  rw [View.read_apply]
  show V m c main_arg2 (((cfg0.win 2).blk t).view.emb (ix4 0 cc r w)) = V m c main_arg2 (ix4 b ch r w)
  refine congrArg (V m c main_arg2) ?_
  funext a; apply Fin.ext
  match a with
  | ⟨0, _⟩ => show win0_2.index t (0 : Fin 4) * 1 + 1 * 0 = b.val; omega
  | ⟨1, _⟩ => show win0_2.index t (1 : Fin 4) * 32 + 1 * cc.val = ch.val; omega
  | ⟨2, _⟩ => show win0_2.index t (2 : Fin 4) * 64 + 1 * r.val = r.val; omega
  | ⟨3, _⟩ => show win0_2.index t (3 : Fin 4) * 64 + 1 * w.val = w.val; omega

/-! ## What a point writes back, the cover, the array -/

/-- WHAT POINT `t` WRITES BACK is block `t` of the mixer's result of the argument arrays as the region finds them. -/
theorem flushed_eq (c : Dev nD) (t : Fin cfg0.N) :
    (dats m 0 c).flushed 3 t
      = ((cfg0.win 3).blk t).view.read (Elt Ideal) (mixed (V m c main_arg0) (V m c main_arg1) (V m c main_arg2)) := by
  rw [Value.flushed3]
  obtain ⟨-, -, -, -, -, -, -, -, -, -, -, -, -, -, l0, l1, z2, z3⟩ := idx_facts t
  funext y
  show out0_3 (iblk m c 0 t) (iblk m c 1 t) (iblk m c 2 t) y
      = mixed (V m c main_arg0) (V m c main_arg1) (V m c main_arg2) (((cfg0.win 3).blk t).view.emb y)
  have hy0 : (y 0).val < 1 := (y 0).isLt
  refine point_eq (iblk m c 0 t) (iblk m c 1 t) (iblk m c 2 t) _ _ _ ⟨win0_3.index t (0 : Fin 4), l0⟩ (win0_3.index t (1 : Fin 4))
    (fun k cc r w ch hch => mixBlock_read m c t k cc r w _ ch rfl hch)
    (fun k cc r w ch hch => styleBlock_read m c t k cc r w _ ch rfl hch)
    (fun cc r w ch hch => targetBlock_read m c t cc r w _ ch rfl hch) y _ ?_ ?_ ?_ ?_
  · show win0_3.index t (0 : Fin 4) * 1 + 1 * (y 0).val = win0_3.index t (0 : Fin 4); omega
  · show win0_3.index t (1 : Fin 4) * 32 + 1 * (y 1).val = win0_3.index t (1 : Fin 4) * 32 + (y 1).val; omega
  · show win0_3.index t (2 : Fin 4) * 64 + 1 * (y 2).val = (y 2).val; omega
  · show win0_3.index t (3 : Fin 4) * 64 + 1 * (y 3).val = (y 3).val; omega

/-- An index of the result array is in point `t`'s block iff each coordinate is in the block's range on its axis. -/
theorem mem_blk (t : Fin cfg0.N) (i : S8x256x64x64.Idx) :
    i ∈ ((cfg0.win 3).blk t).view.set ↔ ∀ a : Fin 4, win0_3.index t a * S1x32x64x64.size a ≤ (i a).val ∧ (i a).val < win0_3.index t a * S1x32x64x64.size a + S1x32x64x64.size a := by
  show i ∈ ((View.whole main_v0).slice (win0_3.rect t)).set ↔ _
  rw [View.set_slice_whole, Rect.mem_set_unit]
  exact Iff.rfl

/-- The blocks tile the result array: the entry (b, ch, r, w) is in the block of the point at batch `b` and channel
    tile `ch / 32`. -/
theorem covered (i : S8x256x64x64.Idx) :
    ∃ t : Fin cfg0.N, (cfg0.win 3).flush t = true ∧ i ∈ ((cfg0.win 3).blk t).view.set := by
  have hi0 : (i 0).val < 8 := (i 0).isLt
  have hi1 : (i 1).val < 256 := (i 1).isLt
  have hi2 : (i 2).val < 64 := (i 2).isLt
  have hi3 : (i 3).val < 64 := (i 3).isLt
  obtain ⟨t, ht⟩ := idx_onto ⟨(i 0).val, hi0⟩ ⟨(i 1).val / 32, by omega⟩
  have q0 : win0_3.index t (0 : Fin 4) = (i 0).val := congrFun ht 0
  have q1 : win0_3.index t (1 : Fin 4) = (i 1).val / 32 := congrFun ht 1
  have q2 : win0_3.index t (2 : Fin 4) = 0 := congrFun ht 2
  have q3 : win0_3.index t (3 : Fin 4) = 0 := congrFun ht 3
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 32 ≤ (i 1).val ∧ (i 1).val < win0_3.index t (1 : Fin 4) * 32 + 32; omega
  | ⟨2, _⟩ => show win0_3.index t (2 : Fin 4) * 64 ≤ (i 2).val ∧ (i 2).val < win0_3.index t (2 : Fin 4) * 64 + 64; omega
  | ⟨3, _⟩ => show win0_3.index t (3 : Fin 4) * 64 ≤ (i 3).val ∧ (i 3).val < win0_3.index t (3 : Fin 4) * 64 + 64; omega

/-- THE RESULT ARRAY after the run is the mixer's function of the three argument arrays. -/
theorem final (c : Dev nD) :
    (dats m 0 c).arrAt 3 cfg0.N
      = mixed (m ((c : Thread nD τ).loc main_arg0)) (m ((c : Thread nD τ).loc main_arg1)) (m ((c : Thread nD τ).loc main_arg2)) :=
  (dats m 0 c).arrAt_eq_of_cover 3 _ (fun t _ => flushed_eq m c t) covered

/-- The kernel's run, read: the result at the mixer's function of the arguments, the arguments unchanged. -/
theorem run : θ_run defs (onTc (τ := τ) (main (F := Ideal))) ⟨m, fun _ => 0, ρ⟩ fun r => ∀ c : Dev nD,
      r.2.mem ((c : Thread nD τ).loc main_v0)
        = mixed (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.HostPixelSum.lean ====
/-
  A host sum over the two pixel axes of a [8, 8, 256, 64, 64] array, read as an iterated sum.

  The host's reduction over axes 3 and 4 adds, for each (b, k, c), every entry whose first three coordinates
  are (b, k, c). Those entries are exactly the (b, k, c, h, w) for h, w < 64, each once; so the sum is the
  sum over rows h of the sum over columns w. Only commutativity and associativity of addition are used, so
  nothing here depends on the entries being finite.
-/
import Idealize.ShloMosaic.PureOps.Ideal.Laws
import Idealize.ShloMosaic.Lib.ValueIdx

noncomputable section

namespace Cert.Mixer

open Idealize.ShloMosaic Idealize.ShloMosaic.ValueIdx

/-- The (b, k, c) an entry is added into is its own first three coordinates. -/
theorem drop_pixels_val (h : (⟨5, ![8, 8, 256, 64, 64]⟩ : Shape).ReducesTo [3, 4] ⟨3, ![8, 8, 256]⟩)
    (i : (⟨5, ![8, 8, 256, 64, 64]⟩ : Shape).Idx) :
    (h.drop i 0).val = (i 0).val ∧ (h.drop i 1).val = (i 1).val ∧ (h.drop i 2).val = (i 2).val :=
  ⟨h.drop_apply_val_of_eq i 0 0, h.drop_apply_val_of_eq i 1 1, h.drop_apply_val_of_eq i 2 2⟩

/-- The entries added into (b, k, c) are the (b, k, c, h, w), so their sum is the sum over rows of the sums over
    columns. -/
theorem sum_drop_pixels {M : Type} [AddCommMonoid M]
    (h : (⟨5, ![8, 8, 256, 64, 64]⟩ : Shape).ReducesTo [3, 4] ⟨3, ![8, 8, 256]⟩)
    (x : (⟨5, ![8, 8, 256, 64, 64]⟩ : Shape).Idx → M) (b k : Fin 8) (c : Fin 256) :
    ∑ i ∈ Finset.univ.filter (fun i => h.drop i = ix3 b k c), x i
      = ∑ r : Fin 64, ∑ w : Fin 64, x (ix5 b k c r w) := by
  rw [← Fintype.sum_prod_type' (f := fun r w => x (ix5 b k c r w))]
  refine Finset.sum_nbij' (fun i => ((⟨(i 3).val, (i 3).isLt⟩ : Fin 64), (⟨(i 4).val, (i 4).isLt⟩ : Fin 64)))
    (fun p => ix5 b k c p.1 p.2) ?_ ?_ ?_ ?_ ?_
  · intro i _; exact Finset.mem_univ _
  · intro p _
    refine Finset.mem_filter.2 ⟨Finset.mem_univ _, ?_⟩
    obtain ⟨e0, e1, e2⟩ := drop_pixels_val h (ix5 b k c p.1 p.2)
    funext a; apply Fin.ext
    match a with
    | ⟨0, _⟩ => exact e0
    | ⟨1, _⟩ => exact e1
    | ⟨2, _⟩ => exact e2
  · intro i hi
    have hj := (Finset.mem_filter.1 hi).2
    obtain ⟨e0, e1, e2⟩ := drop_pixels_val h i
    have q0 : (i 0).val = b.val := by rw [← e0, hj]
    have q1 : (i 1).val = k.val := by rw [← e1, hj]
    have q2 : (i 2).val = c.val := by rw [← e2, hj]
    funext a; apply Fin.ext
    match a with
    | ⟨0, _⟩ => exact q0.symm
    | ⟨1, _⟩ => exact q1.symm
    | ⟨2, _⟩ => exact q2.symm
    | ⟨3, _⟩ => rfl
    | ⟨4, _⟩ => rfl
  · intro p _; rfl
  · intro i hi
    have hj := (Finset.mem_filter.1 hi).2
    obtain ⟨e0, e1, e2⟩ := drop_pixels_val h i
    have q0 : (i 0).val = b.val := by rw [← e0, hj]
    have q1 : (i 1).val = k.val := by rw [← e1, hj]
    have q2 : (i 2).val = c.val := by rw [← e2, hj]
    refine congrArg x ?_
    funext a; apply Fin.ext
    match a with
    | ⟨0, _⟩ => exact q0
    | ⟨1, _⟩ => exact q1
    | ⟨2, _⟩ => exact q2
    | ⟨3, _⟩ => rfl
    | ⟨4, _⟩ => rfl

/-- So the host's sum over the two pixel axes, at the extended reals, is the initial value plus that iterated sum. -/
theorem hostReduceAdd_pixels
    (h : (⟨5, ![8, 8, 256, 64, 64]⟩ : Shape).ReducesTo [3, 4] ⟨3, ![8, 8, 256]⟩)
    (x : (⟨5, ![8, 8, 256, 64, 64]⟩ : Shape).Idx → EReal) (init : EReal) (b k : Fin 8) (c : Fin 256) :
    Ideal.hostReduceAdd h x init (ix3 b k c) = init + ∑ r : Fin 64, ∑ w : Fin 64, x (ix5 b k c r w) := by
  unfold Ideal.hostReduceAdd
  rw [sum_drop_pixels h x b k c]

end Cert.Mixer

end
-- ==== Proof.RefValue.lean ====
/-
  The reference program's result, read index by index, is the mixer's function of its three arguments.

  Stage by stage, at explicit coordinates: the product CT · CR summed over the two pixel axes is the inner
  product `corr`; CR · CR summed the same way is `energy`; their quotient through the square root, doubled, is
  `score`; the host's maximum over the K styles (a fold from -∞, then once more the maximum with -∞, which
  changes nothing) is `peak`; the exponential of the difference is `boost`; its sum over the styles, the
  quotient by it, and the final product with IR summed over the styles are `share` and `blend`. The host's
  sums start from the literal 0, which is the real zero.
-/
import proofs.«150728_j87497073754187_1_alg».proof.Proof.Gen.ReferenceIdeal.Read
import proofs.«150728_j87497073754187_1_alg».proof.Proof.Mixer
import proofs.«150728_j87497073754187_1_alg».proof.Proof.HostPixelSum

noncomputable section

namespace Cert.ReferenceIdeal.RefValue

open Cert.ReferenceIdeal Cert.ReferenceIdeal.Gen Cert.ReferenceIdeal.Read Cert.Mixer
open Idealize.ShloMosaic Idealize.ShloMosaic.ValueIdx

variable (x0 x1 : (⟨S8x8x256x64x64, .f32⟩ : BufTy).Contents (Elt Ideal)) (x2 : (⟨S8x256x64x64, .f32⟩ : BufTy).Contents (Elt Ideal))

/-- CT broadcast over the styles, times CR, at one entry. -/
theorem prod_apply (b k : Fin 8) (c : Fin 256) (r w : Fin 64) :
    val_main_v2 (F := Ideal) x1 x2 (ix5 b k c r w) = x2 (ix4 b c r w) * x1 (ix5 b k c r w) := by
  rw [val_main_v2_apply, val_main_v1_apply, val_main_v0_apply]
  have e : idx_main_v0 (idx_main_v1 (ix5 b k c r w)) = ix4 b c r w :=
    funext fun a => Fin.ext (by match a with | ⟨0, _⟩ => rfl | ⟨1, _⟩ => rfl | ⟨2, _⟩ => rfl | ⟨3, _⟩ => rfl)
  rw [e]; rfl

/-- The first pixel sum is the inner product of the target image with style image `k`. -/
theorem corr_apply (b k : Fin 8) (c : Fin 256) :
    val_main_v3 (F := Ideal) x1 x2 (ix3 b k c) = corr (styleSlab x1 b c) (targetSlab x2 b c) k := by
  unfold val_main_v3
  simp only [Host.reduceAdd, Ideal.hostReduceAdd_def]
  rw [hostReduceAdd_pixels, val_main_cst_apply, Ideal.ofBits_def, Ideal.ofBits_zero_f32, zero_add]
  exact Finset.sum_congr rfl fun r _ => Finset.sum_congr rfl fun w _ => prod_apply x1 x2 b k c r w

/-- The second pixel sum is the squared norm of style image `k`. -/
theorem energy_apply (b k : Fin 8) (c : Fin 256) :
    val_main_v6 (F := Ideal) x1 (ix3 b k c) = energy (styleSlab x1 b c) k := by
  unfold val_main_v6
  simp only [Host.reduceAdd, Ideal.hostReduceAdd_def]
  rw [hostReduceAdd_pixels, val_main_cst_0_apply, Ideal.ofBits_def, Ideal.ofBits_zero_f32, zero_add]
  rfl

/-- The doubled quotient is the score. -/
theorem score_apply (b k : Fin 8) (c : Fin 256) :
    val_main_v11 (F := Ideal) x1 x2 (ix5 b k c 0 0) = score (styleSlab x1 b c) (targetSlab x2 b c) k := by
  rw [val_main_v11_apply, val_main_v9_apply, val_main_v4_apply, val_main_v8_apply, val_main_v7_apply,
    val_main_v10_apply, val_main_cst_1_apply]
  have e4 : idx_main_v4 (ix5 b k c (0 : Fin 1) (0 : Fin 1)) = ix3 b k c :=
    funext fun a => Fin.ext (by match a with | ⟨0, _⟩ => rfl | ⟨1, _⟩ => rfl | ⟨2, _⟩ => rfl)
  have e7 : idx_main_v7 (ix5 b k c (0 : Fin 1) (0 : Fin 1)) = ix3 b k c :=
    funext fun a => Fin.ext (by match a with | ⟨0, _⟩ => rfl | ⟨1, _⟩ => rfl | ⟨2, _⟩ => rfl)
  rw [e4, e7, corr_apply, energy_apply]
  rfl

/-- The host's maximum over the styles is the fold of `max` from -∞ over the K scores. -/
theorem fold_apply (b : Fin 8) (c : Fin 256) :
    val_main_v12 (F := Ideal) x1 x2 (ix4 b c 0 0) = peak (styleSlab x1 b c) (targetSlab x2 b c) := by
  unfold val_main_v12
  rw [Host.reduce_eq_fold_single FloatOps.maximumf _ _ reducesTo_S8x8x256x1x1_S8x256x1x1_d1 (by decide) h_S_ (ix4 b c 0 0)]
  unfold peak
  refine Finset.fold_congr fun k _ => ?_
  have e : (by decide : S8x8x256x1x1.Reduces [1] S8x256x1x1).lift (ix4 b c (0 : Fin 1) (0 : Fin 1)) k = ix5 b k c 0 0 :=
    funext fun a => Fin.ext (by match a with | ⟨0, _⟩ => rfl | ⟨1, _⟩ => rfl | ⟨2, _⟩ => rfl | ⟨3, _⟩ => rfl | ⟨4, _⟩ => rfl)
  show val_main_v11 (F := Ideal) x1 x2 ((by decide : S8x8x256x1x1.Reduces [1] S8x256x1x1).lift (ix4 b c 0 0) k) = _
  rw [e]
  exact score_apply x1 x2 b k c

/-- Taking the maximum with -∞ once more changes nothing: the fold started there. -/
theorem peak_apply (b : Fin 8) (c : Fin 256) :
    val_main_v14 (F := Ideal) x1 x2 (ix4 b c 0 0) = peak (styleSlab x1 b c) (targetSlab x2 b c) := by
  rw [val_main_v14_apply, val_main_v13_apply, val_main_cst_3_apply, fold_apply]
  show max floor (peak _ _) = peak _ _
  exact max_eq_right (by unfold peak; exact (Finset.le_fold_max _).mpr (Or.inl le_rfl))

/-- The exponential of a score's distance below the largest. -/
theorem boost_apply (b k : Fin 8) (c : Fin 256) :
    val_main_v18 (F := Ideal) x1 x2 (ix5 b k c 0 0) = boost (styleSlab x1 b c) (targetSlab x2 b c) k := by
  rw [val_main_v18_apply, val_main_v17_apply, val_main_v16_apply, val_main_v15_apply, score_apply]
  have e : idx_main_v15 (idx_main_v16 (ix5 b k c (0 : Fin 1) (0 : Fin 1))) = ix4 b c 0 0 :=
    funext fun a => Fin.ext (by match a with | ⟨0, _⟩ => rfl | ⟨1, _⟩ => rfl | ⟨2, _⟩ => rfl | ⟨3, _⟩ => rfl)
  rw [e, peak_apply]
  rfl

/-- The sum of the exponentials over the styles. -/
theorem total_apply (b : Fin 8) (c : Fin 256) :
    val_main_v19 (F := Ideal) x1 x2 (ix4 b c 0 0) = ∑ k : Fin 8, boost (styleSlab x1 b c) (targetSlab x2 b c) k := by
  rw [val_main_v19_apply, val_main_cst_4_apply, Ideal.ofBits_def, Ideal.ofBits_zero_f32, zero_add]
  refine Finset.sum_congr rfl fun k _ => ?_
  have e : idx_main_v19 (ix4 b c (0 : Fin 1) (0 : Fin 1)) k = ix5 b k c 0 0 :=
    funext fun a => Fin.ext (by match a with | ⟨0, _⟩ => rfl | ⟨1, _⟩ => rfl | ⟨2, _⟩ => rfl | ⟨3, _⟩ => rfl | ⟨4, _⟩ => rfl)
  rw [e]
  exact boost_apply x1 x2 b k c

/-- The softmax weight. -/
theorem share_apply (b k : Fin 8) (c : Fin 256) :
    val_main_v22 (F := Ideal) x1 x2 (ix5 b k c 0 0) = share (styleSlab x1 b c) (targetSlab x2 b c) k := by
  rw [val_main_v22_apply, boost_apply, val_main_v21_apply, val_main_v20_apply]
  have e : idx_main_v20 (idx_main_v21 (ix5 b k c (0 : Fin 1) (0 : Fin 1))) = ix4 b c 0 0 :=
    funext fun a => Fin.ext (by match a with | ⟨0, _⟩ => rfl | ⟨1, _⟩ => rfl | ⟨2, _⟩ => rfl | ⟨3, _⟩ => rfl)
  rw [e, total_apply]
  rfl

/-- The result at (b, c, r, w): the weighted sum of the K values of IR at that pixel. -/
theorem blend_apply (b : Fin 8) (c : Fin 256) (r w : Fin 64) :
    val_main_v25 (F := Ideal) x0 x1 x2 (ix4 b c r w)
      = blend (styleSlab x1 b c) (targetSlab x2 b c) (pixelStack x0 b c r w) := by
  rw [val_main_v25_apply, val_main_cst_5_apply, Ideal.ofBits_def, Ideal.ofBits_zero_f32, zero_add]
  refine Finset.sum_congr rfl fun k _ => ?_
  have e : idx_main_v25 (ix4 b c r w) k = ix5 b k c r w :=
    funext fun a => Fin.ext (by match a with | ⟨0, _⟩ => rfl | ⟨1, _⟩ => rfl | ⟨2, _⟩ => rfl | ⟨3, _⟩ => rfl | ⟨4, _⟩ => rfl)
  have e' : idx_main_v23 (ix5 b k c r w) = ix5 b k c 0 0 :=
    funext fun a => Fin.ext (by match a with | ⟨0, _⟩ => rfl | ⟨1, _⟩ => rfl | ⟨2, _⟩ => rfl | ⟨3, _⟩ => rfl | ⟨4, _⟩ => rfl)
  rw [e, val_main_v24_apply, val_main_v23_apply, e', share_apply]
  rfl

/-- THE REFERENCE IS THE MIXER: its last stage, as a function of the three argument arrays, is `mixed`. -/
theorem reference_eq : val_main_v25 (F := Ideal) x0 x1 x2 = mixed x0 x1 x2 := by
  funext i
  obtain ⟨b, c, r, w, rfl⟩ : ∃ (b : Fin 8) (c : Fin 256) (r w : Fin 64), i = ix4 b c r w := ⟨i 0, i 1, i 2, i 3, eq_ix4 i⟩
  rw [mixed_apply]
  exact blend_apply x0 x1 x2 b c r w

end Cert.ReferenceIdeal.RefValue

end
-- ==== Proof.lean ====
/-
  The style mixer: a fused kernel against its array-level reference, equal on the extended reals.

  Both programs take features IR, CR of shape [8, 8, 256, 64, 64] (batch, K = 8 styles, channels, 64 × 64 pixels)
  and a target CT of shape [8, 256, 64, 64], and return an array of CT's shape. For each batch entry and channel they
  score every style k by  2 · ⟨CT, CR_k⟩ / sqrt ⟨CR_k, CR_k⟩  (inner products over the pixels), take the softmax of
  the K scores (subtract the largest, exponentiate, normalise by the sum), and return at every pixel the sum over k of
  IR_k times the weight of k (`Cert.Mixer.mixed`, module Mixer).

  The reference does this with whole-array operations: its sums over the two pixel axes at once are read as iterated
  sums (module HostPixelSum), its maximum over the styles as a fold, and stage by stage its result is `mixed` of the
  arguments (module RefValue). The kernel works on one (batch entry, 32-channel tile) at a time: inside a block it sums
  a row at a time and then over the rows, keeps unit axes, and broadcasts the maximum and the sum back over the styles;
  at an index of its block this is the same weighted sum of the same slabs (module KernelBody), the blocks are the
  arrays' blocks, and the 64 blocks written back tile the result (module KernelArray). Only the order of the exact sums
  differs between the two, and exact addition on the extended reals is commutative and associative, so the claim needs
  nothing of the precondition. The kernel's idealization rewrote no operation, so there is nothing to preserve.
-/
import proofs.«150728_j87497073754187_1_alg».proof.Defs
import proofs.«150728_j87497073754187_1_alg».proof.Proof.Gen.Kernel
import proofs.«150728_j87497073754187_1_alg».proof.Proof.Gen.Kernel.Skeleton
import proofs.«150728_j87497073754187_1_alg».proof.Proof.Gen.Kernel.Launch
import proofs.«150728_j87497073754187_1_alg».proof.Proof.Gen.Kernel.Points
import proofs.«150728_j87497073754187_1_alg».proof.Proof.Gen.Kernel.Frame
import proofs.«150728_j87497073754187_1_alg».proof.Proof.Gen.KernelIdeal
import proofs.«150728_j87497073754187_1_alg».proof.Proof.Gen.KernelIdeal.Skeleton
import proofs.«150728_j87497073754187_1_alg».proof.Proof.Gen.KernelIdeal.Launch
import proofs.«150728_j87497073754187_1_alg».proof.Proof.Gen.KernelIdeal.Points
import proofs.«150728_j87497073754187_1_alg».proof.Proof.Gen.KernelIdeal.Frame
import proofs.«150728_j87497073754187_1_alg».proof.Proof.Gen.ReferenceIdeal
import proofs.«150728_j87497073754187_1_alg».proof.Proof.Gen.KernelIdeal.Value
import proofs.«150728_j87497073754187_1_alg».proof.Proof.Gen.ReferenceIdeal.Run
import proofs.«150728_j87497073754187_1_alg».proof.Proof.Gen.ReferenceIdeal.Read
import proofs.«150728_j87497073754187_1_alg».proof.Proof.Gen.Pre_finite_inputs
import proofs.«150728_j87497073754187_1_alg».proof.Proof.KernelArray
import proofs.«150728_j87497073754187_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the reading on the extended reals. -/
theorem preserves : Cert.preserves_Kernel_KernelIdeal := trivial

/-- From memories agreeing on the three arguments, both programs end with the mixer's function of them in the result. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.ReferenceIdeal.RefValue.reference_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
